-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_keep" .f32 0x3FB6DB6E#32 ((16777216 / 11744051 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S160000 : Shape := ⟨1, ![160000]⟩
abbrev S10000 : Shape := ⟨1, ![10000]⟩
abbrev S512x512 : Shape := ⟨2, ![512, 512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S160000 : S_.BroadcastsInDim S160000 (![] : Fin 0 → Fin S160000.rank)
  reducesTo_S160000_S_d0 : S160000.ReducesTo [0] S_
  bcast_S_S10000 : S_.BroadcastsInDim S10000 (![] : Fin 0 → Fin S10000.rank)
  reducesTo_S10000_S_d0 : S10000.ReducesTo [0] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg6 : FVec F S10000x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S10000x512 .f32 := Host.absf main_arg6
  let main_cst_6 : FVec F S_ .f32 := constant S_ .f32 0x7F800000#32
  let main_v20 : FVec F S10000x512 .f32 := broadcastInDim S10000x512 ![] bcast_S_S10000x512 main_cst_6
  let main_v21 : IVec S10000x512 1 := cmpf .olt main_v19 main_v20
  let main_c_7 : IVec S_ 1 := constantI S_ 1 1#1
  let main_v22 : IVec S_ 1 := (fun x v => Host.reduce IntOp.andi x v reducesTo_S10000x512_S_d0_1 h_S_) main_v21 main_c_7
  let main_v23 : IVec S_ 1 := andi main_v18 main_v22
  main_v23

def fn {F : FTy → Type} [FloatOps F] (main_arg0 : FVec F S10000x512 .f32) (main_arg1 : IVec S160000 32) (main_arg2 : IVec S160000 32) (main_arg3 : FVec F S160000 .f32) (main_arg4 : FVec F S10000 .f32) (main_arg5 : FVec F S512x512 .f32) (main_arg6 : FVec F S10000x512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S160000 .f32 := Host.absf main_arg3
  let main_cst_0 : FVec F S_ .f32 := constant S_ .f32 0x7F800000#32
  let main_v5 : FVec F S160000 .f32 := broadcastInDim S160000 ![] bcast_S_S160000 main_cst_0
  let main_v6 : IVec S160000 1 := cmpf .olt main_v4 main_v5
  let main_c_1 : IVec S_ 1 := constantI S_ 1 1#1
  let main_v7 : IVec S_ 1 := (fun x v => Host.reduce IntOp.andi x v reducesTo_S160000_S_d0 h_S_) main_v6 main_c_1
  let main_v8 : IVec S_ 1 := andi main_v3 main_v7
  let main_v9 : FVec F S10000 .f32 := Host.absf main_arg4
  let main_cst_2 : FVec F S_ .f32 := constant S_ .f32 0x7F800000#32
  let main_v10 : FVec F S10000 .f32 := broadcastInDim S10000 ![] bcast_S_S10000 main_cst_2
  let main_v11 : IVec S10000 1 := cmpf .olt main_v9 main_v10
  let main_c_3 : IVec S_ 1 := constantI S_ 1 1#1
  let main_v12 : IVec S_ 1 := (fun x v => Host.reduce IntOp.andi x v reducesTo_S10000_S_d0 h_S_) main_v11 main_c_3
  let main_v13 : IVec S_ 1 := andi main_v8 main_v12
  let main_v14 : FVec F S512x512 .f32 := Host.absf main_arg5
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg6 main_v13 main_v16
-- ==== Kernel.lean ====
abbrev S10000x512 : Shape := ⟨2, ![10000, 512]⟩
abbrev S160000 : Shape := ⟨1, ![160000]⟩
abbrev S10000 : Shape := ⟨1, ![10000]⟩
abbrev S512x512 : Shape := ⟨2, ![512, 512]⟩
abbrev S_ : Shape := ⟨0, ![]⟩
abbrev S160000x1 : Shape := ⟨2, ![160000, 1]⟩
abbrev S160000x512 : Shape := ⟨2, ![160000, 512]⟩
abbrev S10000x1 : Shape := ⟨2, ![10000, 1]⟩
abbrev S1000x512 : Shape := ⟨2, ![1000, 512]⟩
abbrev S1000x1 : Shape := ⟨2, ![1000, 1]⟩

abbrev nBuf : Space → Nat
  | .hbm => 26
  | .vmem => 11
  | .smem => 0
  | _ => 0

abbrev bufTy : (tb : Table) → Fin (tcTables nBuf tb) → BufTy
  | .hbm, ⟨0, _⟩ => ⟨S10000x512, .f32⟩
  | .hbm, ⟨1, _⟩ => ⟨S160000, .i32⟩
  | .hbm, ⟨2, _⟩ => ⟨S160000, .i32⟩
  | .hbm, ⟨3, _⟩ => ⟨S160000, .f32⟩
  | .hbm, ⟨4, _⟩ => ⟨S10000, .f32⟩
  | .hbm, ⟨5, _⟩ => ⟨S512x512, .f32⟩
  | .hbm, ⟨6, _⟩ => ⟨S10000x512, .f32⟩
  | .hbm, ⟨7, _⟩ => ⟨S_, .i32⟩
  | .hbm, ⟨8, _⟩ => ⟨S160000, .i32⟩
  | .hbm, ⟨9, _⟩ => ⟨S160000, .i1⟩
  | .hbm, ⟨10, _⟩ => ⟨S_, .i32⟩
  | .hbm, ⟨11, _⟩ => ⟨S160000, .i32⟩
  | .hbm, ⟨12, _⟩ => ⟨S160000, .i32⟩
  | .hbm, ⟨13, _⟩ => ⟨S160000, .i32⟩
  | .hbm, ⟨14, _⟩ => ⟨S160000x1, .i32⟩
  | .hbm, ⟨15, _⟩ => ⟨S160000x512, .f32⟩
  | .hbm, ⟨16, _⟩ => ⟨S160000x1, .f32⟩
  | .hbm, ⟨17, _⟩ => ⟨S160000x512, .f32⟩
  | .hbm, ⟨18, _⟩ => ⟨S160000x512, .f32⟩
  | .hbm, ⟨19, _⟩ => ⟨S_, .f32⟩
  | .hbm, ⟨20, _⟩ => ⟨S10000x512, .f32⟩
  | .hbm, ⟨21, _⟩ => ⟨S160000x1, .i32⟩
  | .hbm, ⟨22, _⟩ => ⟨S10000x512, .f32⟩
  | .hbm, ⟨23, _⟩ => ⟨S512x512, .bf16⟩
  | .hbm, ⟨24, _⟩ => ⟨S10000x1, .f32⟩
  | .hbm, ⟨25, _⟩ => ⟨S10000x512, .f32⟩
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1000x512, .f32⟩
  | .local _ .vmem, ⟨4, _⟩ => ⟨S1000x1, .f32⟩
  | .local _ .vmem, ⟨5, _⟩ => ⟨S1000x1, .f32⟩
  | .local _ .vmem, ⟨6, _⟩ => ⟨S512x512, .bf16⟩
  | .local _ .vmem, ⟨7, _⟩ => ⟨S1000x512, .f32⟩
  | .local _ .vmem, ⟨8, _⟩ => ⟨S1000x512, .f32⟩
  | .local _ .vmem, ⟨9, _⟩ => ⟨S1000x512, .f32⟩
  | .local _ .vmem, ⟨10, _⟩ => ⟨S1000x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S160000 : S_.BroadcastsInDim S160000 (![] : Fin 0 → Fin S160000.rank)
  bcast_S160000_S160000x1_0 : S160000.BroadcastsInDim S160000x1 (![0] : Fin 1 → Fin S160000x1.rank)
  bcast_S160000x1_S160000x512_0_1 : S160000x1.BroadcastsInDim S160000x512 (![0, 1] : Fin 2 → Fin S160000x512.rank)
  bcast_S_S10000x512 : S_.BroadcastsInDim S10000x512 (![] : Fin 0 → Fin S10000x512.rank)
  bitsLt_bf16_f32 : FTy.bits .bf16 < FTy.bits .f32
  shapeCasts_S10000_S10000x1 : S10000.ShapeCasts S10000x1
  inb_S1000x512_S1000x512_0_0 : ∀ a, (![0, 0] : Fin 2 → Nat) a + S1000x512.size a ≤ S1000x512.size a
  h_S1000x512 : 0 < S1000x512.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x512 : S1000x1.Broadcasts S1000x512
  shapeCasts_S1000x512_S1000x512 : S1000x512.ShapeCasts S1000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  natLt_1_32 : 1 < 32
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  dot_S1000x512_S512x512_S1000x512_1_1_0_0_n_n_wf : DotDims.WF S1000x512 S512x512 S1000x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S10000x512.size a
  hwx0_1 : ∀ i : grid0.Coords, EltTy.bits .f32 = 32 ∨ (Rect.block (s := S10000x512) S1000x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S10000x1.size a
  hwx0_2 : ∀ i : grid0.Coords, EltTy.bits .f32 = 32 ∨ (Rect.block (s := S10000x1) S1000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x512.size a ≤ S10000x512.size a
  hwx0_4 : ∀ i : grid0.Coords, EltTy.bits .f32 = 32 ∨ (Rect.block (s := S10000x512) S1000x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x512.size a ≤ S10000x512.size a
  hwx0_5 : ∀ i : grid0.Coords, EltTy.bits .f32 = 32 ∨ (Rect.block (s := S10000x512) S1000x512.size (cc0_transform_5 i) (hinb0_5 i)).WholeWords (EltTy.packing .f32)

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def dot_S1000x512_S512x512_S1000x512_1_1_0_0_n_n : DotDims S1000x512 S512x512 S1000x512 where
  lhsContracting := [1]
  rhsContracting := [1]
  lhsNonContracting := [0]
  rhsNonContracting := [0]
  lhsBatch := []
  rhsBatch := []
  wf := dot_S1000x512_S512x512_S1000x512_1_1_0_0_n_n_wf

abbrev win0_0 : Pipeline.Window sig grid0 :=
  Pipeline.Window.ofSpec (Memref.whole main_v12) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1000x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x512 : Shape := ⟨2, ![10000, 512]⟩
abbrev S160000 : Shape := ⟨1, ![160000]⟩
abbrev S10000 : Shape := ⟨1, ![10000]⟩
abbrev S512x512 : Shape := ⟨2, ![512, 512]⟩
abbrev S_ : Shape := ⟨0, ![]⟩
abbrev S160000x1 : Shape := ⟨2, ![160000, 1]⟩
abbrev S160000x512 : Shape := ⟨2, ![160000, 512]⟩
abbrev S10000x1 : Shape := ⟨2, ![10000, 1]⟩

abbrev nBuf : Space → Nat
  | .hbm => 40
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S160000, .i32⟩
  | .hbm, ⟨2, _⟩ => ⟨S160000, .i32⟩
  | .hbm, ⟨3, _⟩ => ⟨S160000, .f32⟩
  | .hbm, ⟨4, _⟩ => ⟨S10000, .f32⟩
  | .hbm, ⟨5, _⟩ => ⟨S512x512, .f32⟩
  | .hbm, ⟨6, _⟩ => ⟨S10000x512, .f32⟩
  | .hbm, ⟨7, _⟩ => ⟨S_, .i32⟩
  | .hbm, ⟨8, _⟩ => ⟨S160000, .i32⟩
  | .hbm, ⟨9, _⟩ => ⟨S160000, .i1⟩
  | .hbm, ⟨10, _⟩ => ⟨S_, .i32⟩
  | .hbm, ⟨11, _⟩ => ⟨S160000, .i32⟩
  | .hbm, ⟨12, _⟩ => ⟨S160000, .i32⟩
  | .hbm, ⟨13, _⟩ => ⟨S160000, .i32⟩
  | .hbm, ⟨14, _⟩ => ⟨S160000x1, .i32⟩
  | .hbm, ⟨15, _⟩ => ⟨S160000x512, .f32⟩
  | .hbm, ⟨16, _⟩ => ⟨S160000x1, .f32⟩
  | .hbm, ⟨17, _⟩ => ⟨S160000x512, .f32⟩
  | .hbm, ⟨18, _⟩ => ⟨S160000x512, .f32⟩
  | .hbm, ⟨19, _⟩ => ⟨S_, .f32⟩
  | .hbm, ⟨20, _⟩ => ⟨S10000x512, .f32⟩
  | .hbm, ⟨21, _⟩ => ⟨S160000x1, .i32⟩
  | .hbm, ⟨22, _⟩ => ⟨S10000x512, .f32⟩
  | .hbm, ⟨23, _⟩ => ⟨S10000x1, .f32⟩
  | .hbm, ⟨24, _⟩ => ⟨S10000x512, .f32⟩
  | .hbm, ⟨25, _⟩ => ⟨S10000x512, .f32⟩
  | .hbm, ⟨26, _⟩ => ⟨S10000x512, .f32⟩
  | .hbm, ⟨27, _⟩ => ⟨S512x512, .f32⟩
  | .hbm, ⟨28, _⟩ => ⟨S10000x512, .f32⟩
  | .hbm, ⟨29, _⟩ => ⟨S_, .f32⟩
  | .hbm, ⟨30, _⟩ => ⟨S10000x512, .f32⟩
  | .hbm, ⟨31, _⟩ => ⟨S10000x512, .f32⟩
  | .hbm, ⟨32, _⟩ => ⟨S_, .f32⟩
  | .hbm, ⟨33, _⟩ => ⟨S10000x512, .f32⟩
  | .hbm, ⟨34, _⟩ => ⟨S10000x512, .i1⟩
  | .hbm, ⟨35, _⟩ => ⟨S10000x512, .f32⟩
  | .hbm, ⟨36, _⟩ => ⟨S_, .f32⟩
  | .hbm, ⟨37, _⟩ => ⟨S10000x512, .f32⟩
  | .hbm, ⟨38, _⟩ => ⟨S10000x512, .f32⟩
  | .hbm, ⟨39, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  bcast_S_S160000 : S_.BroadcastsInDim S160000 (![] : Fin 0 → Fin S160000.rank)
  bcast_S160000_S160000x1_0 : S160000.BroadcastsInDim S160000x1 (![0] : Fin 1 → Fin S160000x1.rank)
  bcast_S160000x1_S160000x512_0_1 : S160000x1.BroadcastsInDim S160000x512 (![0, 1] : Fin 2 → Fin S160000x512.rank)
  bcast_S_S10000x512 : S_.BroadcastsInDim S10000x512 (![] : Fin 0 → Fin S10000x512.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  transposes_S512x512_S512x512_1_0 : S512x512.Transposes [1, 0] S512x512
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  dot_S10000x512_S512x512_S10000x512_1_0_0_1_n_n_wf : DotDims.WF S10000x512 S512x512 S10000x512 [1] [0] [0] [1] [] []

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf

class Facts : Prop extends Facts₀ where

variable [Facts]
-- ==== Proof.Spec.lean ====
/-
  The layer both programs compute, as one function of the argument arrays, entry by entry, on the extended reals.

  With `A` the aggregated neighbour messages ([10000, 512]; how they are gathered and summed is common to the two
  programs and never opened here), `X` the node features, `d` the degrees, `W` the weight ([out, in]) and `u` the
  dropout noise, the entry at row `r`, column `q` is

      max (∑ k, (A[r,k] + X[r,k] / d[r]) · W[q,k]) 0 · (keep u[r,q] · c)

  where `keep u` is 1 when `u ≥ 0.3` (the f32 word both programs carry) and 0 otherwise, and `c` is the
  reciprocal of the keep probability: one program divides the mask by the f32 word `p` nearest 0.7, the other multiplies it
  by the constant named `1 / p` exactly; division by a nonzero real is the product with its reciprocal on every
  extended real, so the two are one number.
-/
import Idealize.ShloMosaic.PureOps.Ideal
import Idealize.ShloMosaic.Lib.ValueIdx

noncomputable section

namespace Cert.Spec

open Idealize.ShloMosaic Idealize.ShloMosaic.ValueIdx

/-- The reciprocal of the keep probability: `1 / p` for `p = 11744051 / 2^24`, the f32 word nearest 0.7. -/
def invKeep : EReal := ((16777216 / 11744051 : ℝ) : EReal)

/-- The dropout mask at one noise value: 1 when the noise is at least the threshold word, 0 otherwise. -/
def keep (u : EReal) : EReal :=
  (((Ideal.cmp .oge u (Ideal.ofBits .f32 0x3E99999A#32)).toNat : ℝ) : EReal)

/-- The f32 word `0x3F333333` denotes `11744051 / 2^24`. -/
theorem ofBits_keepProb : Ideal.ofBits .f32 0x3F333333#32 = ((11744051 / 16777216 : ℝ) : EReal) := by
  simp [Ideal.ofBits, Ideal.ieee, -EReal.coe_mul]; norm_num

/-- Dividing by the keep probability is multiplying by its reciprocal, at the infinities too. -/
theorem div_keepProb (x : EReal) : Ideal.div x (Ideal.ofBits .f32 0x3F333333#32) = x * invKeep := by
  rw [ofBits_keepProb, Ideal.div_coe (by norm_num : (11744051 / 16777216 : ℝ) ≠ 0), invKeep]
  norm_num

/-- A one-bit word widened to 32 bits and read signed is the bit read unsigned. -/
theorem toInt_setWidth (b : BitVec 1) : ((b.setWidth 32).toInt : ℤ) = (b.toNat : ℤ) := by
  revert b; decide

/-- So the mask converted through a 32-bit signed word is the mask converted directly. -/
theorem sitofp_setWidth (b : BitVec 1) :
    FloatOps.sitofp (F := Ideal) .f32 (b.setWidth 32) = (((b.toNat : ℝ)) : EReal) := by
  show (((b.setWidth 32).toInt : ℝ) : EReal) = ((b.toNat : ℝ) : EReal)
  have h := toInt_setWidth b
  congr 1
  exact_mod_cast h

/-- The layer's entry at row `r`, column `q`. -/
def entry (A X : (⟨2, ![10000, 512]⟩ : Shape).Idx → EReal) (d : (⟨1, ![10000]⟩ : Shape).Idx → EReal)
    (W : (⟨2, ![512, 512]⟩ : Shape).Idx → EReal) (u : (⟨2, ![10000, 512]⟩ : Shape).Idx → EReal)
    (r : Fin 10000) (q : Fin 512) : EReal :=
  max (∑ k : Fin 512, (A (ix2 r k) + Ideal.div (X (ix2 r k)) (d (ix1 r))) * W (ix2 q k)) (Ideal.ofBits .f32 0x00000000#32)
    * (keep (u (ix2 r q)) * invKeep)

/-- The layer's output array. -/
def G (A X : (⟨2, ![10000, 512]⟩ : Shape).Idx → EReal) (d : (⟨1, ![10000]⟩ : Shape).Idx → EReal)
    (W : (⟨2, ![512, 512]⟩ : Shape).Idx → EReal) (u : (⟨2, ![10000, 512]⟩ : Shape).Idx → EReal) :
    (⟨2, ![10000, 512]⟩ : Shape).Idx → EReal :=
  fun i => entry A X d W u (i 0) (i 1)

theorem G_ix2 (A X : (⟨2, ![10000, 512]⟩ : Shape).Idx → EReal) (d : (⟨1, ![10000]⟩ : Shape).Idx → EReal)
    (W : (⟨2, ![512, 512]⟩ : Shape).Idx → EReal) (u : (⟨2, ![10000, 512]⟩ : Shape).Idx → EReal)
    (r : Fin 10000) (q : Fin 512) : G A X d W u (ix2 r q) = entry A X d W u r q := rfl

end Cert.Spec

end
-- ==== Proof.KernelPayload.lean ====
/-
  What the kernel body stores, read at one entry of its [1000, 512] block.

  The body's one store is a single pure term of the five blocks it loads: rows of the features `X`, the degree
  column `d`, rows of the aggregated messages `A`, the whole weight `W` and rows of the noise `u`. At row `p`,
  column `q` of the block that term is

      max (∑ k, (A[p,k] + X[p,k] / d[p,0]) · W[q,k]) 0 · (keep u[p,q] · c):

  the casts to the same shape are identities, the degree column repeated along the lanes reads its row, the change of
  float format is the identity on extended reals, the matrix unit into a zero accumulator contracts the second axis of
  both operands, the mask widened to a 32-bit word and converted is 0 or 1, and the named constant is the reciprocal
  of the keep probability.
-/
import proofs.«165037_j12678743458315_2_alg».proof.Proof.Gen.KernelIdeal.Skeleton
import proofs.«165037_j12678743458315_2_alg».proof.Proof.Spec
import Idealize.ShloMosaic.Lib.Pipeline.Value
import Idealize.ShloMosaic.Lib.ValueIdx
import Idealize.ShloMosaic.PureOps.Ideal.Laws
import Idealize.ShloMosaic.PureOps.IdealRules

noncomputable section

namespace Cert.KernelIdeal.Payload

open Cert.KernelIdeal Cert.KernelIdeal.Gen Idealize.ShloMosaic Idealize.ShloMosaic.ValueIdx

/-! ## The matrix unit's product at an entry -/

theorem lhs_row (j : S1000x512.Idx) (κ : dot_S1000x512_S512x512_S1000x512_1_1_0_0_n_n.contr.Idx) :
    (dot_S1000x512_S512x512_S1000x512_1_1_0_0_n_n.lhsIdx j κ 0).val = (j 0).val := by
  unfold DotDims.lhsIdx
  rw [dif_neg (show ¬(0 : Fin S1000x512.rank) ∈ dot_S1000x512_S512x512_S1000x512_1_1_0_0_n_n.lhsBatch by decide),
    dif_pos (show (0 : Fin S1000x512.rank) ∈ dot_S1000x512_S512x512_S1000x512_1_1_0_0_n_n.lhsNonContracting by decide)]
  rfl

theorem lhs_contr (j : S1000x512.Idx) (κ : dot_S1000x512_S512x512_S1000x512_1_1_0_0_n_n.contr.Idx) :
    (dot_S1000x512_S512x512_S1000x512_1_1_0_0_n_n.lhsIdx j κ 1).val = (κ ⟨0, by decide⟩).val :=
  dot_S1000x512_S512x512_S1000x512_1_1_0_0_n_n.lhsIdx_val_of_single rfl j κ

theorem rhs_row (j : S1000x512.Idx) (κ : dot_S1000x512_S512x512_S1000x512_1_1_0_0_n_n.contr.Idx) :
    (dot_S1000x512_S512x512_S1000x512_1_1_0_0_n_n.rhsIdx j κ 0).val = (j 1).val := by
  unfold DotDims.rhsIdx
  rw [dif_neg (show ¬(0 : Fin S512x512.rank) ∈ dot_S1000x512_S512x512_S1000x512_1_1_0_0_n_n.rhsBatch by decide),
    dif_pos (show (0 : Fin S512x512.rank) ∈ dot_S1000x512_S512x512_S1000x512_1_1_0_0_n_n.rhsNonContracting by decide)]
  rfl

theorem rhs_contr (j : S1000x512.Idx) (κ : dot_S1000x512_S512x512_S1000x512_1_1_0_0_n_n.contr.Idx) :
    (dot_S1000x512_S512x512_S1000x512_1_1_0_0_n_n.rhsIdx j κ 1).val = (κ ⟨0, by decide⟩).val :=
  dot_S1000x512_S512x512_S1000x512_1_1_0_0_n_n.rhsIdx_val_of_single rfl j κ

/-- The product into a zero accumulator at (p, q): row p of the left operand against row q of the right one, both
    contracted along their second axis. -/
theorem matmul_entry (lhs : FVec Ideal S1000x512 .bf16) (rhs : FVec Ideal S512x512 .bf16) (p : Fin 1000) (q : Fin 512) :
    FloatOps.matmul dot_S1000x512_S512x512_S1000x512_1_1_0_0_n_n none lhs rhs (constant S1000x512 .f32 0x00000000#32) (ix2 p q)
      = ∑ k : Fin 512, lhs (ix2 p k) * rhs (ix2 q k) := by
  rw [Ideal.matmul_constant_zero_apply, ← Equiv.sum_comp (contrEquiv1 dot_S1000x512_S512x512_S1000x512_1_1_0_0_n_n 512 rfl rfl).symm]
  refine Finset.sum_congr rfl fun k _ => ?_
  have hk := contrEquiv1_symm_val dot_S1000x512_S512x512_S1000x512_1_1_0_0_n_n 512 rfl rfl k
  have el : dot_S1000x512_S512x512_S1000x512_1_1_0_0_n_n.lhsIdx (ix2 p q) ((contrEquiv1 dot_S1000x512_S512x512_S1000x512_1_1_0_0_n_n 512 rfl rfl).symm k) = ix2 p k := funext fun a => Fin.ext (by
    match a with
    | ⟨0, _⟩ => exact lhs_row _ _
    | ⟨1, _⟩ => exact (lhs_contr _ _).trans hk)
  have er : dot_S1000x512_S512x512_S1000x512_1_1_0_0_n_n.rhsIdx (ix2 p q) ((contrEquiv1 dot_S1000x512_S512x512_S1000x512_1_1_0_0_n_n 512 rfl rfl).symm k) = ix2 q k := funext fun a => Fin.ext (by
    match a with
    | ⟨0, _⟩ => exact rhs_row _ _
    | ⟨1, _⟩ => exact (rhs_contr _ _).trans hk)
  rw [el, er]

/-! ## The degree column along the lanes -/

/-- The [1000, 1] column repeated to [1000, 512], read at (p, k), is the column at row p. -/
theorem column_entry (d : FVec Ideal S1000x1 .f32) (p : Fin 1000) (k : Fin 512) :
    broadcastTo S1000x512 d broadcasts_S1000x1_S1000x512 (ix2 p k) = d (ix2 p 0) :=
  broadcastTo_apply d broadcasts_S1000x1_S1000x512 (ix2 p k) (ix2 p 0) (fun a => by
    match a with
    | ⟨0, _⟩ => show p.val = if (1000 : Nat) = 1 then 0 else p.val; rw [if_neg (by decide)]
    | ⟨1, _⟩ => show 0 = if (1 : Nat) = 1 then 0 else k.val; rw [if_pos rfl])

/-! ## The named constant -/

/-- The constant the body scales the mask by is the reciprocal of the keep probability. -/
theorem named_invKeep : Named.named (F := Ideal) Cert.KernelIdeal.κ "inv_keep" (φ := .f32) 0x3FB6DB6E#32 = Cert.Spec.invKeep :=
  IdealRules.named_const.ideal_named_scalar _ _ _ _ rfl

/-! ## The stored value at an entry -/

theorem pay_entry (v0 : Vec Ideal S1000x512 .f32) (v1 : Vec Ideal S1000x1 .f32) (v5 : Vec Ideal S1000x512 .f32)
    (v9 : Vec Ideal S512x512 .bf16) (v14 : Vec Ideal S1000x512 .f32) (p : Fin 1000) (q : Fin 512) :
    k0_pay1 (F := Ideal) v0 v1 v5 v9 v14 (ix2 p q)
      = max (∑ k : Fin 512, (v5 (ix2 p k) + Ideal.div (v0 (ix2 p k)) (v1 (ix2 p 0))) * v9 (ix2 q k)) (Ideal.ofBits .f32 0x00000000#32)
        * (Cert.Spec.keep (v14 (ix2 p q)) * Cert.Spec.invKeep) := by
  unfold k0_pay1
  simp only [shapeCast_self]
  show max (FloatOps.matmul dot_S1000x512_S512x512_S1000x512_1_1_0_0_n_n none
        (fun j => v5 j + Ideal.div (v0 j) (broadcastTo S1000x512 v1 broadcasts_S1000x1_S1000x512 j)) v9
        (constant S1000x512 .f32 0x00000000#32) (ix2 p q)) (Ideal.ofBits .f32 0x00000000#32)
      * (FloatOps.sitofp (F := Ideal) .f32 ((Ideal.cmp .oge (v14 (ix2 p q)) (Ideal.ofBits .f32 0x3E99999A#32)).setWidth 32)
          * Named.named (F := Ideal) Cert.KernelIdeal.κ "inv_keep" (φ := .f32) 0x3FB6DB6E#32) = _
  rw [matmul_entry, named_invKeep, Cert.Spec.sitofp_setWidth]
  simp only [column_entry]
  rfl

end Cert.KernelIdeal.Payload

end
-- ==== Proof.LibBcast.lean ====
/-
  Layout operations of small ranks read at an index given by coordinates: a vector made a column or a row, a column or a
  row repeated along the other axis, a scalar repeated everywhere. Each reads the operand at the coordinates it keeps.
-/
import Idealize.ShloMosaic.Lib.ValueIdx
import Idealize.ShloMosaic.Lib.Pipeline.Value
import Idealize.ShloMosaic.Lib.ValueLayout

namespace Cert.LibBcast

open Idealize.ShloMosaic Idealize.ShloMosaic.ValueIdx

variable {α : Type}

/-- A length-`a` vector broadcast to an `[a, 1]` column reads, at `(p, u)`, the vector at `p`. -/
theorem bid_col_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply _ h v (ix2 p u) (ix1 p) (fun d => by
    match d with
    | ⟨0, _⟩ =>
      show p.val = if a = 1 then 0 else p.val
      split_ifs with h1
      · have := p.isLt; omega
      · rfl)

/-- A length-`b` vector broadcast to a `[1, b]` row reads, at `(u, q)`, the vector at `q`. -/
theorem bid_row_apply {b : ℕ} (v : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ ![1] h v (ix2 u q) = v (ix1 q) :=
  broadcastInDim_apply _ h v (ix2 u q) (ix1 q) (fun d => by
    match d with
    | ⟨0, _⟩ =>
      show q.val = if b = 1 then 0 else q.val
      split_ifs with h1
      · have := q.isLt; omega
      · rfl)

/-- An `[a, 1]` column repeated over `b` columns reads, at `(p, q)`, the column at `(p, 0)`. -/
theorem bid_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ ![0, 1] h v (ix2 p q) = v (ix2 p (0 : Fin 1)) :=
  broadcastInDim_apply _ h v (ix2 p q) (ix2 p (0 : Fin 1)) (fun d => by
    match d with
    | ⟨0, _⟩ =>
      show p.val = if a = 1 then 0 else p.val
      split_ifs with h1
      · have := p.isLt; omega
      · rfl
    | ⟨1, _⟩ =>
      show (0 : ℕ) = if (1 : ℕ) = 1 then 0 else q.val
      rw [if_pos rfl])

/-- A `[1, b]` row repeated over `a` rows reads, at `(p, q)`, the row at `(0, q)`. -/
theorem bid_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ ![0, 1] h v (ix2 p q) = v (ix2 (0 : Fin 1) q) :=
  broadcastInDim_apply _ h v (ix2 p q) (ix2 (0 : Fin 1) q) (fun d => by
    match d with
    | ⟨0, _⟩ =>
      show (0 : ℕ) = if (1 : ℕ) = 1 then 0 else p.val
      rw [if_pos rfl]
    | ⟨1, _⟩ =>
      show q.val = if b = 1 then 0 else q.val
      split_ifs with h1
      · have := q.isLt; omega
      · rfl)

/-- A scalar repeated over any shape reads the scalar everywhere. -/
theorem bid_scalar_apply {t : Shape} (v : (⟨0, ![]⟩ : Shape).Idx → α)
    (h : (⟨0, ![]⟩ : Shape).BroadcastsInDim t (![] : Fin 0 → Fin t.rank)) (j : t.Idx) :
    broadcastInDim t ![] h v j = v ix0 :=
  broadcastInDim_apply _ h v j ix0 (fun d => d.elim0)

/-- A length-`a` vector cast to an `[a, 1]` column reads, at `(p, u)`, the vector at `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

end Cert.LibBcast
-- ==== Proof.KernelBlocks.lean ====
/-
  From the kernel's ten row blocks to its whole result array.

  The grid has ten points; point `t` stages rows `1000 t … 1000 t + 999` of the aggregated messages, of the node
  features, of the degree column and of the noise, the whole weight (rounded to bf16 on the host: the identity on
  extended reals), and writes back rows `1000 t … 1000 t + 999` of the result. Row `p` of block `t` is row
  `1000 t + p` of the array, so what point `t` writes back is block `t` of the layer `Spec.G` of the argument arrays;
  the ten blocks tile the [10000, 512] result, which therefore ends holding `Spec.G`.

  Three of the staged arrays are written by the host operations before the kernel: the aggregated messages (a
  gather, a quotient and a scatter-add of the arguments, carried here as one term `agg` and never opened), the weight
  in bf16, and the degrees as a [10000, 1] column.
-/
import proofs.«165037_j12678743458315_2_alg».proof.Proof.Gen.KernelIdeal.Value
import proofs.«165037_j12678743458315_2_alg».proof.Proof.KernelPayload
import proofs.«165037_j12678743458315_2_alg».proof.Proof.LibBcast
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The arrays the host operations leave for the kernel -/

/-- The aggregated messages: each edge's source row divided by the edge's normaliser, summed into the edge's
    destination row. One term of the arguments, the same in both programs. -/
def agg (x0 : (⟨S10000x512, .f32⟩ : BufTy).Contents (Elt Ideal)) (x1 x2 : (⟨S160000, .i32⟩ : BufTy).Contents (Elt Ideal))
    (x3 : (⟨S160000, .f32⟩ : BufTy).Contents (Elt Ideal)) : (⟨S10000x512, .f32⟩ : BufTy).Contents (Elt Ideal) :=
  Host.scatterAdd scatter_S10000x512_S160000x1_S160000x512_1_0_0_1
    (broadcastInDim S10000x512 ![] bcast_S_S10000x512 (constant (F := Ideal) S_ .f32 0x00000000#32))
    (broadcastInDim S160000x1 ![0] bcast_S160000_S160000x1_0 x2)
    (Host.divf
      (Host.gather gather_S10000x512_S160000x1_S160000x512_1_0_n_n_0_1_1512 x0
        (broadcastInDim S160000x1 ![0] bcast_S160000_S160000x1_0
          (select (cmpi .slt x1 (broadcastInDim S160000 ![] bcast_S_S160000 (constantI S_ 32 0#32)))
            (addi x1 (broadcastInDim S160000 ![] bcast_S_S160000 (constantI S_ 32 10000#32))) x1)))
      (broadcastInDim S160000x512 ![0, 1] bcast_S160000x1_S160000x512_0_1
        (broadcastInDim S160000x1 ![0] bcast_S160000_S160000x1_0 x3)))

/-- When the kernel is entered the first staged array holds the aggregated messages. -/
theorem V_agg (c : Dev nD) : V m c main_v12
    = agg (m ((c : Thread nD τ).loc main_arg0)) (m ((c : Thread nD τ).loc main_arg1)) (m ((c : Thread nD τ).loc main_arg2))
        (m ((c : Thread nD τ).loc main_arg3)) := by
  dsimp only [V, hostOps0]; after_results; rfl

/-- The weight staged for the kernel is the weight argument (its bf16 rounding is the identity on extended reals). -/
theorem V_weight (c : Dev nD) : (V m c main_v13 : S512x512.Idx → EReal) = m ((c : Thread nD τ).loc main_arg5) := by
  dsimp only [V, hostOps0]; after_results; rfl

/-- The degree column staged for the kernel is the degree vector reshaped. -/
theorem V_degree (c : Dev nD) : (V m c main_v14 : S10000x1.Idx → EReal)
    = shapeCast S10000x1 (m ((c : Thread nD τ).loc main_arg4)) shapeCasts_S10000_S10000x1 := by
  dsimp only [V, hostOps0]; after_results; rfl

/-! ## Rows of a block are rows of the array -/

theorem hz : (![0, 0] : Fin 2 → Nat) = fun _ => 0 := funext fun a => by fin_cases a <;> rfl

/-- The printed index maps over the grid: every row-blocked window is at block row `t`, block column 0; the weight's
    block never moves. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row `p` of block `t` is row `1000 t + p` of the array. -/
def row (t : Fin cfg0.N) (p : Fin 1000) : Fin 10000 :=
  ⟨1000 * t.val + p.val, by
    have h : t.val < grid0.N := t.isLt
    rw [N_0] at h
    have := p.isLt
    omega⟩

theorem emb0 (t : Fin cfg0.N) (p : Fin 1000) (q : Fin 512) :
    (((cfg0.win 0).blk t).view.emb (ix2 p q) : S10000x512.Idx) = ix2 (row t p) q := by
  obtain ⟨e0, e1, -⟩ := idx_facts t
  funext a; apply Fin.ext
  match a with
  | ⟨0, _⟩ => show win0_0.index t (0 : Fin 2) * 1000 + 1 * p.val = 1000 * t.val + p.val; rw [e0]; omega
  | ⟨1, _⟩ => show win0_0.index t (1 : Fin 2) * 512 + 1 * q.val = q.val; rw [e1]; omega

theorem emb1 (t : Fin cfg0.N) (p : Fin 1000) (q : Fin 512) :
    (((cfg0.win 1).blk t).view.emb (ix2 p q) : S10000x512.Idx) = ix2 (row t p) q := by
  obtain ⟨-, -, e0, e1, -⟩ := idx_facts t
  funext a; apply Fin.ext
  match a with
  | ⟨0, _⟩ => show win0_1.index t (0 : Fin 2) * 1000 + 1 * p.val = 1000 * t.val + p.val; rw [e0]; omega
  | ⟨1, _⟩ => show win0_1.index t (1 : Fin 2) * 512 + 1 * q.val = q.val; rw [e1]; omega

theorem emb2 (t : Fin cfg0.N) (p : Fin 1000) :
    (((cfg0.win 2).blk t).view.emb (ix2 p (0 : Fin 1)) : S10000x1.Idx) = ix2 (row t p) (0 : Fin 1) := by
  obtain ⟨-, -, -, -, e0, e1, -⟩ := idx_facts t
  funext a; apply Fin.ext
  match a with
  | ⟨0, _⟩ => show win0_2.index t (0 : Fin 2) * 1000 + 1 * p.val = 1000 * t.val + p.val; rw [e0]; omega
  | ⟨1, _⟩ => show win0_2.index t (1 : Fin 2) * 1 + 1 * 0 = 0; rw [e1]

theorem emb3 (t : Fin cfg0.N) (q k : Fin 512) :
    (((cfg0.win 3).blk t).view.emb (ix2 q k) : S512x512.Idx) = ix2 q k := by
  obtain ⟨-, -, -, -, -, -, e0, e1, -⟩ := idx_facts t
  funext a; apply Fin.ext
  match a with
  | ⟨0, _⟩ => show win0_3.index t (0 : Fin 2) * 512 + 1 * q.val = q.val; rw [e0]; omega
  | ⟨1, _⟩ => show win0_3.index t (1 : Fin 2) * 512 + 1 * k.val = k.val; rw [e1]; omega

theorem emb4 (t : Fin cfg0.N) (p : Fin 1000) (q : Fin 512) :
    (((cfg0.win 4).blk t).view.emb (ix2 p q) : S10000x512.Idx) = ix2 (row t p) q := by
  obtain ⟨-, -, -, -, -, -, -, -, e0, e1, -⟩ := idx_facts t
  funext a; apply Fin.ext
  match a with
  | ⟨0, _⟩ => show win0_4.index t (0 : Fin 2) * 1000 + 1 * p.val = 1000 * t.val + p.val; rw [e0]; omega
  | ⟨1, _⟩ => show win0_4.index t (1 : Fin 2) * 512 + 1 * q.val = q.val; rw [e1]; omega

theorem emb5 (t : Fin cfg0.N) (p : Fin 1000) (q : Fin 512) :
    (((cfg0.win 5).blk t).view.emb (ix2 p q) : S10000x512.Idx) = ix2 (row t p) q := by
  obtain ⟨-, -, -, -, -, -, -, -, -, -, e0, e1⟩ := idx_facts t
  funext a; apply Fin.ext
  match a with
  | ⟨0, _⟩ => show win0_5.index t (0 : Fin 2) * 1000 + 1 * p.val = 1000 * t.val + p.val; rw [e0]; omega
  | ⟨1, _⟩ => show win0_5.index t (1 : Fin 2) * 512 + 1 * q.val = q.val; rw [e1]; omega

/-! ## Each staged block, read at an entry -/

/-- Block `t` of the aggregated messages. -/
theorem blk_agg (c : Dev nD) (t : Fin cfg0.N) (p : Fin 1000) (k : Fin 512) :
    (iblk m c 0 t : Vec Ideal S1000x512 .f32) (ix2 p k)
      = agg (m ((c : Thread nD τ).loc main_arg0)) (m ((c : Thread nD τ).loc main_arg1)) (m ((c : Thread nD τ).loc main_arg2))
          (m ((c : Thread nD τ).loc main_arg3)) (ix2 (row t p) k) := by
  show V m c main_v12 (((cfg0.win 0).blk t).view.emb (ix2 p k)) = _
  rw [V_agg, emb0]

/-- Block `t` of the node features. -/
theorem blk_nodes (c : Dev nD) (t : Fin cfg0.N) (p : Fin 1000) (k : Fin 512) :
    (iblk m c 1 t : Vec Ideal S1000x512 .f32) (ix2 p k)
      = (m ((c : Thread nD τ).loc main_arg0) : S10000x512.Idx → EReal) (ix2 (row t p) k) := by
  show V m c main_arg0 (((cfg0.win 1).blk t).view.emb (ix2 p k)) = _
  rw [V_main_arg0, emb1]

/-- Block `t` of the degree column. -/
theorem blk_degree (c : Dev nD) (t : Fin cfg0.N) (p : Fin 1000) :
    (iblk m c 2 t : Vec Ideal S1000x1 .f32) (ix2 p (0 : Fin 1))
      = (m ((c : Thread nD τ).loc main_arg4) : S10000.Idx → EReal) (ix1 (row t p)) := by
  show (V m c main_v14 : S10000x1.Idx → EReal) (((cfg0.win 2).blk t).view.emb (ix2 p (0 : Fin 1))) = _
  rw [V_degree, emb2]
  exact Cert.LibBcast.shapeCast_a_a1_apply _ _ (row t p) 0

/-- The weight's one block is the weight. -/
theorem blk_weight (c : Dev nD) (t : Fin cfg0.N) (q k : Fin 512) :
    (iblk m c 3 t : Vec Ideal S512x512 .bf16) (ix2 q k)
      = (m ((c : Thread nD τ).loc main_arg5) : S512x512.Idx → EReal) (ix2 q k) := by
  show (V m c main_v13 : S512x512.Idx → EReal) (((cfg0.win 3).blk t).view.emb (ix2 q k)) = _
  rw [V_weight, emb3]

/-- Block `t` of the dropout noise. -/
theorem blk_noise (c : Dev nD) (t : Fin cfg0.N) (p : Fin 1000) (q : Fin 512) :
    (iblk m c 4 t : Vec Ideal S1000x512 .f32) (ix2 p q)
      = (m ((c : Thread nD τ).loc main_arg6) : S10000x512.Idx → EReal) (ix2 (row t p) q) := by
  show V m c main_arg6 (((cfg0.win 4).blk t).view.emb (ix2 p q)) = _
  rw [V_main_arg6, emb4]

/-! ## What each point writes back, and the array after the run -/

/-- The layer of the argument arrays as core `c` holds them at launch. -/
abbrev result (c : Dev nD) : S10000x512.Idx → EReal :=
  Cert.Spec.G
    (agg (m ((c : Thread nD τ).loc main_arg0)) (m ((c : Thread nD τ).loc main_arg1)) (m ((c : Thread nD τ).loc main_arg2))
      (m ((c : Thread nD τ).loc main_arg3)))
    (m ((c : Thread nD τ).loc main_arg0)) (m ((c : Thread nD τ).loc main_arg4)) (m ((c : Thread nD τ).loc main_arg5))
    (m ((c : Thread nD τ).loc main_arg6))

/-- Point `t` writes back block `t` of the layer. -/
theorem flushed_eq (c : Dev nD) (t : Fin cfg0.N) :
    (dats m 0 c).flushed 5 t = ((cfg0.win 5).blk t).view.read (Elt Ideal) (result m c) := by
  rw [Cert.KernelIdeal.Value.flushed5]
  unfold out0_5
  rw [View.canon_unit_zero hz]
  simp only [View.ld_unit_zero (S := S1000x512) hz, View.ld_unit_zero (S := S1000x1) hz, View.ld_unit_zero (S := S512x512) hz]
  funext j
  obtain ⟨p, q, rfl⟩ : ∃ (p : Fin 1000) (q : Fin 512), j = ix2 p q := ⟨j 0, j 1, eq_ix2 j⟩
  show k0_pay1 (F := Ideal) (iblk m c 1 t) (iblk m c 2 t) (iblk m c 0 t) (iblk m c 3 t) (iblk m c 4 t) (ix2 p q)
    = result m c (((cfg0.win 5).blk t).view.emb (ix2 p q))
  refine (Cert.KernelIdeal.Payload.pay_entry (iblk m c 1 t) (iblk m c 2 t) (iblk m c 0 t) (iblk m c 3 t) (iblk m c 4 t) p q).trans ?_
  rw [emb5]
  refine Eq.trans ?_ (Cert.Spec.G_ix2 _ _ _ _ _ (row t p) q).symm
  unfold Cert.Spec.entry
  simp only [blk_agg, blk_nodes, blk_degree, blk_weight, blk_noise]

/-- An index of the result is in point `t`'s block iff each coordinate is in the block's range on its axis. -/
theorem mem_blk (t : Fin cfg0.N) (i : S10000x512.Idx) :
    i ∈ ((cfg0.win 5).blk t).view.set ↔ ∀ a : Fin 2, win0_5.index t a * S1000x512.size a ≤ (i a).val
      ∧ (i a).val < win0_5.index t a * S1000x512.size a + S1000x512.size a := by
  show i ∈ ((View.whole main_v15).slice (win0_5.rect t)).set ↔ _
  rw [View.set_slice_whole, Rect.mem_set_unit]
  exact Iff.rfl

/-- Every row of the result is in some point's block: row `r` in block `r / 1000`. -/
theorem cover (i : S10000x512.Idx) : ∃ t : Fin cfg0.N, (cfg0.win 5).flush t = true ∧ i ∈ ((cfg0.win 5).blk t).view.set := by
  have hi0 : (i 0).val < 10000 := (i 0).isLt
  have hi1 : (i 1).val < 512 := (i 1).isLt
  have hN : grid0.N = 10 := N_0
  let t : Fin cfg0.N := ⟨(i 0).val / 1000, by show (i 0).val / 1000 < grid0.N; rw [hN]; omega⟩
  have ht : t.val = (i 0).val / 1000 := rfl
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 1000 ≤ (i 0).val ∧ (i 0).val < win0_5.index t (0 : Fin 2) * 1000 + 1000; rw [e0, ht]; omega
  | ⟨1, _⟩ => show win0_5.index t (1 : Fin 2) * 512 ≤ (i 1).val ∧ (i 1).val < win0_5.index t (1 : Fin 2) * 512 + 512; rw [e1]; omega

/-- The result array after the run is the layer of the arguments. -/
theorem final (c : Dev nD) : (dats m 0 c).arrAt 5 cfg0.N = result m c :=
  (dats m 0 c).arrAt_eq_of_cover 5 (result m c) (fun t _ => flushed_eq m c t) cover

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.KernelIdeal.Blocks

end
-- ==== Proof.RefValue.lean ====
/-
  The reference's result array is the layer `Spec.G` of its arguments.

  Read one operation at a time, the entry at (r, q) of the reference's last stage is the product of
  max (row r of (A + X / d) against column q of the transposed weight, summed over the 512 features) 0
  with the mask divided by the keep probability. The transposed weight at (k, q) is the weight at (q, k); the
  degree column repeated along the features is the degree of row r; and the quotient by the keep probability is the
  product with its reciprocal (`Spec.div_keepProb`). The aggregated messages `A` stay the reference's own stage, unopened.
-/
import proofs.«165037_j12678743458315_2_alg».proof.Proof.Gen.ReferenceIdeal.Read
import proofs.«165037_j12678743458315_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The left operand of the product at (r, q) is read along row r. -/
theorem lidx_eq (r : Fin 10000) (q k : Fin 512) : lidx_main_v18 (ix2 r q) k = ix2 r k :=
  funext fun a => Fin.ext (by match a with | ⟨0, _⟩ => rfl | ⟨1, _⟩ => rfl)

/-- The transposed weight at (k, q) is the weight at (q, k). -/
theorem widx_eq (r : Fin 10000) (q k : Fin 512) : idx_main_v17 (ridx_main_v18 (ix2 r q) k) = ix2 q k :=
  funext fun a => Fin.ext (by match a with | ⟨0, _⟩ => rfl | ⟨1, _⟩ => rfl)

/-- The degree column repeated along the features, read in row r, is the degree of row r. -/
theorem didx_eq (r : Fin 10000) (q k : Fin 512) : idx_main_v13 (idx_main_v14 (lidx_main_v18 (ix2 r q) k)) = ix1 r :=
  funext fun a => Fin.ext (by match a with | ⟨0, _⟩ => rfl)

/-- The reference's last stage is the layer of its arguments, the aggregated messages being its own scatter stage. -/
theorem result_eq (x0 : (⟨S10000x512, .f32⟩ : BufTy).Contents (Elt Ideal)) (x1 x2 : (⟨S160000, .i32⟩ : BufTy).Contents (Elt Ideal))
    (x3 : (⟨S160000, .f32⟩ : BufTy).Contents (Elt Ideal)) (x4 : (⟨S10000, .f32⟩ : BufTy).Contents (Elt Ideal))
    (x5 : (⟨S512x512, .f32⟩ : BufTy).Contents (Elt Ideal)) (x6 : (⟨S10000x512, .f32⟩ : BufTy).Contents (Elt Ideal)) :
    val_main_v26 (F := Ideal) x0 x1 x2 x3 x4 x5 x6 = Cert.Spec.G (val_main_v12 (F := Ideal) x0 x1 x2 x3) x0 x4 x5 x6 := by
  funext i
  obtain ⟨r, q, rfl⟩ : ∃ (r : Fin 10000) (q : Fin 512), i = ix2 r q := ⟨i 0, i 1, eq_ix2 i⟩
  rw [Cert.Spec.G_ix2, val_main_v26_apply, val_main_v20_apply, val_main_v18_apply, val_main_v19_apply, val_main_cst_1_apply,
    val_main_v25_apply, val_main_v23_apply, val_main_v22_apply, val_main_v21_apply, val_main_cst_2_apply,
    val_main_v24_apply, val_main_cst_3_apply]
  simp only [val_main_v16_apply, val_main_v15_apply, val_main_v14_apply, val_main_v13_apply, val_main_v17_apply, didx_eq]
  simp only [lidx_eq, widx_eq, Ideal.mulf_def, Ideal.maximumf_def, Ideal.addf_def, Ideal.hostDivf_def, Ideal.ofBits_def]
  rw [Cert.Spec.div_keepProb]
  rfl

end Cert.ReferenceIdeal.RefValue

end
-- ==== Proof.lean ====
/-
  The certificate of a graph-convolution layer: a Pallas kernel against its jnp reference, equal as extended reals.

  Both programs first aggregate neighbour messages on the host by the same gather, quotient and scatter-add; call the
  result `A`. The kernel then computes, ten row blocks of 1000 at a time,

      max ((A + X / d) · Wᵀ) 0 · (keep u · c),

  on the matrix unit, where `c` is the constant named `1 / p` for the f32 word `p` nearest 0.7, and the reference
  computes the same product with one whole matrix product and with the mask DIVIDED by `p`. Entry by entry both are
  `Spec.G`: a change of float format is the identity on extended reals, the contraction is the same sum over the 512
  features, and division by a nonzero real is the product with its reciprocal at every extended real. No finiteness
  of the inputs is used.

  The three frames are the generated ones (the reference's is its generated run with the result dropped); the one
  rewrite of the idealisation is the named constant.
-/
import proofs.«165037_j12678743458315_2_alg».proof.Defs
import proofs.«165037_j12678743458315_2_alg».proof.Proof.Gen.Kernel
import proofs.«165037_j12678743458315_2_alg».proof.Proof.Gen.Kernel.Skeleton
import proofs.«165037_j12678743458315_2_alg».proof.Proof.Gen.Kernel.Launch
import proofs.«165037_j12678743458315_2_alg».proof.Proof.Gen.Kernel.Points
import proofs.«165037_j12678743458315_2_alg».proof.Proof.Gen.Kernel.Frame
import proofs.«165037_j12678743458315_2_alg».proof.Proof.Gen.KernelIdeal
import proofs.«165037_j12678743458315_2_alg».proof.Proof.Gen.KernelIdeal.Skeleton
import proofs.«165037_j12678743458315_2_alg».proof.Proof.Gen.KernelIdeal.Launch
import proofs.«165037_j12678743458315_2_alg».proof.Proof.Gen.KernelIdeal.Points
import proofs.«165037_j12678743458315_2_alg».proof.Proof.Gen.KernelIdeal.Frame
import proofs.«165037_j12678743458315_2_alg».proof.Proof.Gen.ReferenceIdeal
import proofs.«165037_j12678743458315_2_alg».proof.Proof.Gen.KernelIdeal.Value
import proofs.«165037_j12678743458315_2_alg».proof.Proof.Gen.ReferenceIdeal.Run
import proofs.«165037_j12678743458315_2_alg».proof.Proof.Gen.ReferenceIdeal.Read
import proofs.«165037_j12678743458315_2_alg».proof.Proof.Gen.Pre_finite_inputs
import proofs.«165037_j12678743458315_2_alg».proof.Proof.KernelBlocks
import proofs.«165037_j12678743458315_2_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealisation: the mask's scale is named the reciprocal of the keep probability. -/
theorem preserves : Cert.preserves_Kernel_KernelIdeal :=
  IdealRules.named_const.statement Cert.KernelIdeal.κ "inv_keep" .f32 0x3FB6DB6E#32 ((16777216 / 11744051 : ℝ) : EReal) rfl

/-- The two programs aggregate the neighbour messages by the same host operations. -/
theorem agg_eq (x0 : (⟨Cert.ReferenceIdeal.S10000x512, .f32⟩ : BufTy).Contents (Elt Ideal))
    (x1 x2 : (⟨Cert.ReferenceIdeal.S160000, .i32⟩ : BufTy).Contents (Elt Ideal))
    (x3 : (⟨Cert.ReferenceIdeal.S160000, .f32⟩ : BufTy).Contents (Elt Ideal)) :
    Cert.ReferenceIdeal.Read.val_main_v12 (F := Ideal) x0 x1 x2 x3 = Cert.KernelIdeal.Blocks.agg x0 x1 x2 x3 := rfl

/-- From memories that agree on the arguments both programs end with the layer `Spec.G` of the arguments in their
    result arrays: the kernel block by block, the reference operation by operation. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [e0, e1, e2, e3, e4, e5, e6, Cert.ReferenceIdeal.Read.val_main_v26_eq, Cert.ReferenceIdeal.RefValue.result_eq, agg_eq]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
